-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S256x128 .f32) (main_arg7 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) (main_arg6 : FVec F S256x128 .f32) (main_arg7 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 111
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x128, .f32⟩
  | .hbm, ⟨101, _⟩ => ⟨S850000x1, .f32⟩
  | .hbm, ⟨102, _⟩ => ⟨S850000x128, .f32⟩
  | .hbm, ⟨103, _⟩ => ⟨S850000x128, .f32⟩
  | .hbm, ⟨104, _⟩ => ⟨S_, .f32⟩
  | .hbm, ⟨105, _⟩ => ⟨S50000x128, .f32⟩
  | .hbm, ⟨106, _⟩ => ⟨S850000x1, .i32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S5000x128, .f32⟩
  | .local _ .vmem, ⟨14, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x128, .f32⟩
  | .hbm, ⟨101, _⟩ => ⟨S850000x1, .f32⟩
  | .hbm, ⟨102, _⟩ => ⟨S850000x128, .f32⟩
  | .hbm, ⟨103, _⟩ => ⟨S850000x128, .f32⟩
  | .hbm, ⟨104, _⟩ => ⟨S_, .f32⟩
  | .hbm, ⟨105, _⟩ => ⟨S50000x128, .f32⟩
  | .hbm, ⟨106, _⟩ => ⟨S850000x1, .i32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel program's run with every buffer named at the end.

  @main is ten segments: stretches of host operations around three matrix-kernel regions.  The buffer contents at each
  segment boundary are a fold from the launch memory (`Gen.W0` … `Gen.W10`): a host stretch rewrites the buffers its
  operations write, a region leaves its output array at what its grid points' write-backs leave and every other buffer
  as it was.  Every weakly fair execution terminates, and every buffer that outlives a region ends at the last fold
  `Gen.W10` — in particular the two results.  The run is the segments' run (the launch over the segment list, the last
  thread state read against the final memory); only what is read off the final state differs from the frame's run:
  there the arguments, here every buffer.
-/
import proofs.«143242_j62036507623793_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and in the final memory every TensorCore buffer that is not scoped
    to a region holds the last boundary's contents `Gen.W10`. -/
theorem run : θ_run defs (onTc (τ := τ) (main (F := F))) ⟨m, fun _ => 0, ρ⟩ (fun r => ∀ c : Dev nD, ∀ b : Ref sig .tc,
      ¬ (Proc.devRef .tc b : DevRef τ sig).isScoped →
      r.2.mem ((c.tc : Thread nD τ).loc b) = W10 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c b hb => h c _ (mem_uc b hb))

end Cert.KernelIdeal.WholeRun

end
-- ==== Proof.BlockProduct.lean ====
/-
  The body of each of the three matrix kernels, read at one entry of its output block.

  A grid point loads a block `x` of 5000 rows of the left operand and the whole right operand `w`, narrows both to
  bf16 and multiplies them on the matrix unit into a zero accumulator.  Over the extended reals narrowing a float
  format is the identity and the product into the zero accumulator is the plain sum over the one contracted axis,
  so entry `(r, q)` of the stored block is  ∑ k, x (r, k) · w (k, q)  — a row of the block against a column of the
  weights.  The re-indexing of the contraction's one-axis index set by `Fin 256` is `ValueIdx.contrEquiv1`.
-/
import proofs.«143242_j62036507623793_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.BlockProduct

open Cert.KernelIdeal Cert.KernelIdeal.Gen Idealize.ShloMosaic Idealize.ShloMosaic.TcCoe

/-! ## Rows and columns: the two operand entries that meet at contraction position `k` -/

/-- Entry `(row of j, k)` of a block of 5000 rows of 256 features. -/
abbrev rowAt (j0 : Fin 5000) (k : Fin 256) : S5000x256.Idx := fun a => match a with
  | ⟨0, _⟩ => ⟨j0.val, j0.isLt⟩
  | ⟨1, _⟩ => ⟨k.val, k.isLt⟩
/-- Entry `(k, column)` of the 256 × 256 weights. -/
abbrev colAt256 (k : Fin 256) (j1 : Fin 256) : S256x256.Idx := fun a => match a with
  | ⟨0, _⟩ => ⟨k.val, k.isLt⟩
  | ⟨1, _⟩ => ⟨j1.val, j1.isLt⟩
/-- Entry `(k, column)` of the 256 × 128 weights. -/
abbrev colAt128 (k : Fin 256) (j1 : Fin 128) : S256x128.Idx := fun a => match a with
  | ⟨0, _⟩ => ⟨k.val, k.isLt⟩
  | ⟨1, _⟩ => ⟨j1.val, j1.isLt⟩

/-! ## The first layer's kernel: a [5000,256] block times the [256,256] weights -/

section Layer1

theorem lhs0_0 (i : S5000x256.Idx) (q : dot_S5000x256_S256x256_S5000x256_1_0_0_1_n_n.contr.Idx) : (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl
theorem lhs0_1 (i : S5000x256.Idx) (q : dot_S5000x256_S256x256_S5000x256_1_0_0_1_n_n.contr.Idx) : (dot_S5000x256_S256x256_S5000x256_1_0_0_1_n_n.lhsIdx i q 1).val = (q ⟨0, by decide⟩).val :=
  dot_S5000x256_S256x256_S5000x256_1_0_0_1_n_n.lhsIdx_val_of_single rfl i q
theorem rhs0_0 (i : S5000x256.Idx) (q : dot_S5000x256_S256x256_S5000x256_1_0_0_1_n_n.contr.Idx) : (dot_S5000x256_S256x256_S5000x256_1_0_0_1_n_n.rhsIdx i q 0).val = (q ⟨0, by decide⟩).val :=
  dot_S5000x256_S256x256_S5000x256_1_0_0_1_n_n.rhsIdx_val_of_single rfl i q
theorem rhs0_1 (i : S5000x256.Idx) (q : dot_S5000x256_S256x256_S5000x256_1_0_0_1_n_n.contr.Idx) : (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- Entry `j` of what the first kernel stores is row `j 0` of the loaded block against column `j 1` of the weights. -/
theorem pay0_apply (x : Vec Ideal S5000x256 .f32) (w : Vec Ideal S256x256 .f32) (j : S5000x256.Idx) :
    k0_pay1 (F := Ideal) x w j = ∑ k : Fin 256, x (rowAt (j 0) k) * w (colAt256 k (j 1)) := by
  unfold k0_pay1
  simp only [matmul]
  rw [Ideal.matmul_constant_zero_apply,
    ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx j
      ((ValueIdx.contrEquiv1 dot_S5000x256_S256x256_S5000x256_1_0_0_1_n_n 256 rfl rfl).symm k) = rowAt (j 0) k :=
    funext fun a => Fin.ext (by
      match a with
      | ⟨0, _⟩ => exact lhs0_0 _ _
      | ⟨1, _⟩ => exact (lhs0_1 _ _).trans hk)
  have er : dot_S5000x256_S256x256_S5000x256_1_0_0_1_n_n.rhsIdx j
      ((ValueIdx.contrEquiv1 dot_S5000x256_S256x256_S5000x256_1_0_0_1_n_n 256 rfl rfl).symm k) = colAt256 k (j 1) :=
    funext fun a => Fin.ext (by
      match a with
      | ⟨0, _⟩ => exact (rhs0_0 _ _).trans hk
      | ⟨1, _⟩ => exact rhs0_1 _ _)
  show x (dot_S5000x256_S256x256_S5000x256_1_0_0_1_n_n.lhsIdx j _) * w (dot_S5000x256_S256x256_S5000x256_1_0_0_1_n_n.rhsIdx j _) = _
  rw [el, er]

end Layer1

/-! ## The two second-layer kernels: a [5000,256] block times [256,128] weights

Both bodies are the same text: the loaded block passes through a shape cast to its own shape (the identity) before it is
narrowed. -/

section Layer2

theorem lhs1_0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem lhs1_1 (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem rhs1_0 (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem rhs1_1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The product of a block with the [256,128] weights into the zero accumulator, at entry `j`. -/
theorem product128_apply (x : FVec Ideal S5000x256 .f32) (w : FVec Ideal S256x128 .f32) (j : S5000x128.Idx) :
    FloatOps.matmul (F := Ideal) dot_S5000x256_S256x128_S5000x128_1_0_0_1_n_n none x w (constant (F := Ideal) S5000x128 .f32 0x00000000#32) j
      = ∑ k : Fin 256, x (rowAt (j 0) k) * w (colAt128 k (j 1)) := by
  rw [Ideal.matmul_constant_zero_apply,
    ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j
      ((ValueIdx.contrEquiv1 dot_S5000x256_S256x128_S5000x128_1_0_0_1_n_n 256 rfl rfl).symm k) = rowAt (j 0) k :=
    funext fun a => Fin.ext (by
      match a with
      | ⟨0, _⟩ => exact lhs1_0 _ _
      | ⟨1, _⟩ => exact (lhs1_1 _ _).trans hk)
  have er : dot_S5000x256_S256x128_S5000x128_1_0_0_1_n_n.rhsIdx j
      ((ValueIdx.contrEquiv1 dot_S5000x256_S256x128_S5000x128_1_0_0_1_n_n 256 rfl rfl).symm k) = colAt128 k (j 1) :=
    funext fun a => Fin.ext (by
      match a with
      | ⟨0, _⟩ => exact (rhs1_0 _ _).trans hk
      | ⟨1, _⟩ => exact rhs1_1 _ _)
  rw [el, er]

/-- Entry `j` of what the kernel of the mean head stores. -/
theorem pay1_apply (x : Vec Ideal S5000x256 .f32) (w : Vec Ideal S256x128 .f32) (j : S5000x128.Idx) :
    k1_pay1 (F := Ideal) x w j = ∑ k : Fin 256, x (rowAt (j 0) k) * w (colAt128 k (j 1)) := by
  unfold k1_pay1
  simp only [matmul]
  rw [shapeCast_self]
  exact product128_apply x w j

/-- Entry `j` of what the kernel of the log-deviation head stores. -/
theorem pay2_apply (x : Vec Ideal S5000x256 .f32) (w : Vec Ideal S256x128 .f32) (j : S5000x128.Idx) :
    k2_pay1 (F := Ideal) x w j = ∑ k : Fin 256, x (rowAt (j 0) k) * w (colAt128 k (j 1)) := by
  unfold k2_pay1
  simp only [matmul]
  rw [shapeCast_self]
  exact product128_apply x w j

end Layer2

end Cert.KernelIdeal.BlockProduct

end
-- ==== Proof.HostProduct.lean ====
/-
  The reference's three matrix products, read at one entry.

  Over the extended reals a `dot_general` contracting the one shared axis of [50000,256] against [256,n] is, at entry
  `(r, q)`, the sum  ∑ k, x (r, k) · w (k, q)  with no accumulator: row `r` of the left operand against column `q` of
  the right one.  The contraction's index set has one axis of extent 256 and is re-indexed by `Fin 256`
  (`ValueIdx.contrEquiv1`).
-/
import proofs.«143242_j62036507623793_1_alg».proof.Proof.Gen.ReferenceIdeal
import Idealize.ShloMosaic.PureOps.Ideal.Laws
import Idealize.ShloMosaic.Lib.ValueIdx

noncomputable section

namespace Cert.ReferenceIdeal.HostProduct

open Cert.ReferenceIdeal Cert.ReferenceIdeal.Gen Idealize.ShloMosaic Idealize.ShloMosaic.TcCoe

/-- Entry `(r, k)` of an array of 50000 rows of 256 features. -/
abbrev rowAt (r : Fin 50000) (k : Fin 256) : S50000x256.Idx := fun a => match a with
  | ⟨0, _⟩ => ⟨r.val, r.isLt⟩
  | ⟨1, _⟩ => ⟨k.val, k.isLt⟩
/-- Entry `(k, q)` of the 256 × 256 weights. -/
abbrev colAt256 (k : Fin 256) (q : Fin 256) : S256x256.Idx := fun a => match a with
  | ⟨0, _⟩ => ⟨k.val, k.isLt⟩
  | ⟨1, _⟩ => ⟨q.val, q.isLt⟩
/-- Entry `(k, q)` of the 256 × 128 weights. -/
abbrev colAt128 (k : Fin 256) (q : Fin 128) : S256x128.Idx := fun a => match a with
  | ⟨0, _⟩ => ⟨k.val, k.isLt⟩
  | ⟨1, _⟩ => ⟨q.val, q.isLt⟩

/-! ## [50000,256] · [256,256] -/

theorem d256_lhs0 (i : S50000x256.Idx) (q : dot_S50000x256_S256x256_S50000x256_1_0_0_1_n_n.contr.Idx) : (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide),
    dif_pos (show (0 : Fin S50000x256.rank) ∈ dot_S50000x256_S256x256_S50000x256_1_0_0_1_n_n.lhsNonContracting by decide)]
  rfl
theorem d256_lhs1 (i : S50000x256.Idx) (q : dot_S50000x256_S256x256_S50000x256_1_0_0_1_n_n.contr.Idx) : (dot_S50000x256_S256x256_S50000x256_1_0_0_1_n_n.lhsIdx i q 1).val = (q ⟨0, by decide⟩).val :=
  dot_S50000x256_S256x256_S50000x256_1_0_0_1_n_n.lhsIdx_val_of_single rfl i q
theorem d256_rhs0 (i : S50000x256.Idx) (q : dot_S50000x256_S256x256_S50000x256_1_0_0_1_n_n.contr.Idx) : (dot_S50000x256_S256x256_S50000x256_1_0_0_1_n_n.rhsIdx i q 0).val = (q ⟨0, by decide⟩).val :=
  dot_S50000x256_S256x256_S50000x256_1_0_0_1_n_n.rhsIdx_val_of_single rfl i q
theorem d256_rhs1 (i : S50000x256.Idx) (q : dot_S50000x256_S256x256_S50000x256_1_0_0_1_n_n.contr.Idx) : (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide),
    dif_pos (show (1 : Fin S256x256.rank) ∈ dot_S50000x256_S256x256_S50000x256_1_0_0_1_n_n.rhsNonContracting by decide)]
  rfl

/-- The first layer's dense transform at entry `i`. -/
theorem dot256_apply (x : FVec Ideal S50000x256 .f32) (w : FVec Ideal S256x256 .f32) (i : S50000x256.Idx) :
    Host.dotGeneral (F := Ideal) dot_S50000x256_S256x256_S50000x256_1_0_0_1_n_n none x w i
      = ∑ k : Fin 256, x (rowAt (i 0) k) * w (colAt256 k (i 1)) := by
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx i
      ((ValueIdx.contrEquiv1 dot_S50000x256_S256x256_S50000x256_1_0_0_1_n_n 256 rfl rfl).symm k) = rowAt (i 0) k :=
    funext fun a => Fin.ext (by
      match a with
      | ⟨0, _⟩ => exact d256_lhs0 _ _
      | ⟨1, _⟩ => exact (d256_lhs1 _ _).trans hk)
  have er : dot_S50000x256_S256x256_S50000x256_1_0_0_1_n_n.rhsIdx i
      ((ValueIdx.contrEquiv1 dot_S50000x256_S256x256_S50000x256_1_0_0_1_n_n 256 rfl rfl).symm k) = colAt256 k (i 1) :=
    funext fun a => Fin.ext (by
      match a with
      | ⟨0, _⟩ => exact (d256_rhs0 _ _).trans hk
      | ⟨1, _⟩ => exact d256_rhs1 _ _)
  rw [el, er]

/-! ## [50000,256] · [256,128] -/

theorem d128_lhs0 (i : S50000x128.Idx) (q : dot_S50000x256_S256x128_S50000x128_1_0_0_1_n_n.contr.Idx) : (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide),
    dif_pos (show (0 : Fin S50000x256.rank) ∈ dot_S50000x256_S256x128_S50000x128_1_0_0_1_n_n.lhsNonContracting by decide)]
  rfl
theorem d128_lhs1 (i : S50000x128.Idx) (q : dot_S50000x256_S256x128_S50000x128_1_0_0_1_n_n.contr.Idx) : (dot_S50000x256_S256x128_S50000x128_1_0_0_1_n_n.lhsIdx i q 1).val = (q ⟨0, by decide⟩).val :=
  dot_S50000x256_S256x128_S50000x128_1_0_0_1_n_n.lhsIdx_val_of_single rfl i q
theorem d128_rhs0 (i : S50000x128.Idx) (q : dot_S50000x256_S256x128_S50000x128_1_0_0_1_n_n.contr.Idx) : (dot_S50000x256_S256x128_S50000x128_1_0_0_1_n_n.rhsIdx i q 0).val = (q ⟨0, by decide⟩).val :=
  dot_S50000x256_S256x128_S50000x128_1_0_0_1_n_n.rhsIdx_val_of_single rfl i q
theorem d128_rhs1 (i : S50000x128.Idx) (q : dot_S50000x256_S256x128_S50000x128_1_0_0_1_n_n.contr.Idx) : (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide),
    dif_pos (show (1 : Fin S256x128.rank) ∈ dot_S50000x256_S256x128_S50000x128_1_0_0_1_n_n.rhsNonContracting by decide)]
  rfl

/-- A second-layer dense transform at entry `i`. -/
theorem dot128_apply (x : FVec Ideal S50000x256 .f32) (w : FVec Ideal S256x128 .f32) (i : S50000x128.Idx) :
    Host.dotGeneral (F := Ideal) dot_S50000x256_S256x128_S50000x128_1_0_0_1_n_n none x w i
      = ∑ k : Fin 256, x (rowAt (i 0) k) * w (colAt128 k (i 1)) := by
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx i
      ((ValueIdx.contrEquiv1 dot_S50000x256_S256x128_S50000x128_1_0_0_1_n_n 256 rfl rfl).symm k) = rowAt (i 0) k :=
    funext fun a => Fin.ext (by
      match a with
      | ⟨0, _⟩ => exact d128_lhs0 _ _
      | ⟨1, _⟩ => exact (d128_lhs1 _ _).trans hk)
  have er : dot_S50000x256_S256x128_S50000x128_1_0_0_1_n_n.rhsIdx i
      ((ValueIdx.contrEquiv1 dot_S50000x256_S256x128_S50000x128_1_0_0_1_n_n 256 rfl rfl).symm k) = colAt128 k (i 1) :=
    funext fun a => Fin.ext (by
      match a with
      | ⟨0, _⟩ => exact (d128_rhs0 _ _).trans hk
      | ⟨1, _⟩ => exact d128_rhs1 _ _)
  rw [el, er]

end Cert.ReferenceIdeal.HostProduct

end
-- ==== Proof.Tiles0.lean ====
/-
  The first layer's region: the output array after the ten grid points is the whole product  x · W1.

  The grid has ten points; point `t` reads rows 5000·t … 5000·t + 4999 of the left operand and all of the weights, and
  writes the same rows of the output.  Entry `(r, q)` of the block a point stores is row `r` of its block against
  column `q` of the weights (the body's product, read at an entry), which is row `5000·t + r` of the whole left operand
  against that column: the entry of the whole product.  The ten blocks tile the 50000 rows (row `i` lies in the block
  of point `i / 5000`), so after the region the output array IS the whole product of the two operand arrays as the region
  found them.
-/
import proofs.«143242_j62036507623793_1_alg».proof.Proof.Gen.KernelIdeal.Frame
import proofs.«143242_j62036507623793_1_alg».proof.Proof.BlockProduct
import proofs.«143242_j62036507623793_1_alg».proof.Proof.HostProduct
import Idealize.ShloMosaic.Lib.Pipeline.Value

set_option maxRecDepth 16384

noncomputable section

namespace Cert.KernelIdeal.Tiles0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The whole product of the two operand arrays as the region finds them: the reference's `dot_general` of them. -/
def product (c : Dev nD) : S50000x256.Idx → EReal :=
  Host.dotGeneral (F := Ideal) (φ₁ := .f32) (φ₂ := .f32) Cert.ReferenceIdeal.dot_S50000x256_S256x256_S50000x256_1_0_0_1_n_n none (V c main_arg0) (V c main_arg2)

/-- The printed index maps, decided over the ten points: the left operand's block moves with the output's along the
    rows, every other block index is zero. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product. -/
theorem flushed_eq (c : Dev nD) (t : Fin cfg0.N) :
    (dat0 (F := Ideal) V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x256) origin]
  obtain ⟨e0, e1, e2, e3, e4, e5⟩ := index_facts t
  funext j
  show k0_pay1 (F := Ideal) (iblk0 V c 0 t) (iblk0 V c 1 t) j = product V c (((cfg0.win 2).blk t).view.emb j)
  refine (BlockProduct.pay0_apply (iblk0 V c 0 t) (iblk0 V c 1 t) j).trans ?_
  unfold product
  refine Eq.trans ?_ (Cert.ReferenceIdeal.HostProduct.dot256_apply (V c main_arg0) (V c main_arg2) (((cfg0.win 2).blk t).view.emb j)).symm
  refine Finset.sum_congr rfl fun k _ => ?_
  have h0 : ((cfg0.win 0).blk t).view.emb (BlockProduct.rowAt (j 0) k)
      = Cert.ReferenceIdeal.HostProduct.rowAt ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (BlockProduct.colAt256 k (j 1))
      = Cert.ReferenceIdeal.HostProduct.colAt256 k ((((cfg0.win 2).blk t).view.emb j) 1) := by
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  exact congrArg₂ (fun a b : EReal => a * b) (congrArg (V c main_arg0) h0) (congrArg (V c main_arg2) h1)

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v30).slice (win0_2.rect t)).set ↔ _
  rw [View.set_slice_whole, Rect.mem_set_unit]
  exact Iff.rfl

/-- Every row of the output lies in the block of the point its number divided by 5000 names. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- THE OUTPUT ARRAY after the region: the whole product of the operand arrays as the region found them. -/
theorem final (c : Dev nD) : (dat0 (F := Ideal) V c).arrAt 2 cfg0.N = product V c :=
  (dat0 (F := Ideal) V c).arrAt_eq_of_cover 2 (product V c) (fun t _ => flushed_eq V c t) (covered)

end Cert.KernelIdeal.Tiles0

end
-- ==== Proof.Tiles1.lean ====
/-
  The mean head's region: the output array after the ten grid points is the whole product  h · Wmu  (h the hidden layer's activations as the region finds them).

  The grid has ten points; point `t` reads rows 5000·t … 5000·t + 4999 of the left operand and all of the weights, and
  writes the same rows of the output.  Entry `(r, q)` of the block a point stores is row `r` of its block against
  column `q` of the weights (the body's product, read at an entry), which is row `5000·t + r` of the whole left operand
  against that column: the entry of the whole product.  The ten blocks tile the 50000 rows (row `i` lies in the block
  of point `i / 5000`), so after the region the output array IS the whole product of the two operand arrays as the region
  found them.
-/
import proofs.«143242_j62036507623793_1_alg».proof.Proof.Gen.KernelIdeal.Frame
import proofs.«143242_j62036507623793_1_alg».proof.Proof.BlockProduct
import proofs.«143242_j62036507623793_1_alg».proof.Proof.HostProduct
import Idealize.ShloMosaic.Lib.Pipeline.Value

set_option maxRecDepth 16384

noncomputable section

namespace Cert.KernelIdeal.Tiles1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The whole product of the two operand arrays as the region finds them: the reference's `dot_general` of them. -/
def product (c : Dev nD) : S50000x128.Idx → EReal :=
  Host.dotGeneral (F := Ideal) (φ₁ := .f32) (φ₂ := .f32) Cert.ReferenceIdeal.dot_S50000x256_S256x128_S50000x128_1_0_0_1_n_n none (V c main_v47) (V c main_arg4)

/-- The printed index maps, decided over the ten points: the left operand's block moves with the output's along the
    rows, every other block index is zero. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the whole product. -/
theorem flushed_eq (c : Dev nD) (t : Fin cfg1.N) :
    (dat1 (F := Ideal) V c).flushed 2 t = ((cfg1.win 2).blk t).view.read (Elt Ideal) (product V c) := by
  show (cfg1.win 2).cut (grid1.coords t) ((dat1 V c).after 2 t) = _
  rw [after1_2]
  unfold out1_2
  rw [View.canon_unit_zero origin]
  simp only [View.ld_unit_zero (S := S5000x256) origin, View.ld_unit_zero (S := S256x128) origin]
  obtain ⟨e0, e1, e2, e3, e4, e5⟩ := index_facts t
  funext j
  show k1_pay1 (F := Ideal) (iblk1 V c 0 t) (iblk1 V c 1 t) j = product V c (((cfg1.win 2).blk t).view.emb j)
  refine (BlockProduct.pay1_apply (iblk1 V c 0 t) (iblk1 V c 1 t) j).trans ?_
  unfold product
  refine Eq.trans ?_ (Cert.ReferenceIdeal.HostProduct.dot128_apply (V c main_v47) (V c main_arg4) (((cfg1.win 2).blk t).view.emb j)).symm
  refine Finset.sum_congr rfl fun k _ => ?_
  have h0 : ((cfg1.win 0).blk t).view.emb (BlockProduct.rowAt (j 0) k)
      = Cert.ReferenceIdeal.HostProduct.rowAt ((((cfg1.win 2).blk t).view.emb j) 0) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * k.val = k.val; omega
  have h1 : ((cfg1.win 1).blk t).view.emb (BlockProduct.colAt128 k (j 1))
      = Cert.ReferenceIdeal.HostProduct.colAt128 k ((((cfg1.win 2).blk t).view.emb j) 1) := by
    funext a; apply Fin.ext
    match a with
    | ⟨0, _⟩ => show win1_1.index t (0 : Fin 2) * 256 + 1 * k.val = k.val; omega
    | ⟨1, _⟩ => show win1_1.index t (1 : Fin 2) * 128 + 1 * (j 1).val = win1_2.index t (1 : Fin 2) * 128 + 1 * (j 1).val; omega
  exact congrArg₂ (fun a b : EReal => a * b) (congrArg (V c main_v47) h0) (congrArg (V c main_arg4) h1)

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Every row of the output lies in the block of the point its number divided by 5000 names. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the region: the whole product of the operand arrays as the region found them. -/
theorem final (c : Dev nD) : (dat1 (F := Ideal) V c).arrAt 2 cfg1.N = product V c :=
  (dat1 (F := Ideal) V c).arrAt_eq_of_cover 2 (product V c) (fun t _ => flushed_eq V c t) (covered)

end Cert.KernelIdeal.Tiles1

end
-- ==== Proof.Tiles2.lean ====
/-
  The log-deviation head's region: the output array after the ten grid points is the whole product  h · Wls  (h the hidden layer's activations as the region finds them).

  The grid has ten points; point `t` reads rows 5000·t … 5000·t + 4999 of the left operand and all of the weights, and
  writes the same rows of the output.  Entry `(r, q)` of the block a point stores is row `r` of its block against
  column `q` of the weights (the body's product, read at an entry), which is row `5000·t + r` of the whole left operand
  against that column: the entry of the whole product.  The ten blocks tile the 50000 rows (row `i` lies in the block
  of point `i / 5000`), so after the region the output array IS the whole product of the two operand arrays as the region
  found them.
-/
import proofs.«143242_j62036507623793_1_alg».proof.Proof.Gen.KernelIdeal.Frame
import proofs.«143242_j62036507623793_1_alg».proof.Proof.BlockProduct
import proofs.«143242_j62036507623793_1_alg».proof.Proof.HostProduct
import Idealize.ShloMosaic.Lib.Pipeline.Value

set_option maxRecDepth 16384

noncomputable section

namespace Cert.KernelIdeal.Tiles2

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The whole product of the two operand arrays as the region finds them: the reference's `dot_general` of them. -/
def product (c : Dev nD) : S50000x128.Idx → EReal :=
  Host.dotGeneral (F := Ideal) (φ₁ := .f32) (φ₂ := .f32) Cert.ReferenceIdeal.dot_S50000x256_S256x128_S50000x128_1_0_0_1_n_n none (V c main_v47) (V c main_arg6)

/-- The printed index maps, decided over the ten points: the left operand's block moves with the output's along the
    rows, every other block index is zero. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the whole product. -/
theorem flushed_eq (c : Dev nD) (t : Fin cfg2.N) :
    (dat2 (F := Ideal) V c).flushed 2 t = ((cfg2.win 2).blk t).view.read (Elt Ideal) (product V c) := by
  show (cfg2.win 2).cut (grid2.coords t) ((dat2 V c).after 2 t) = _
  rw [after2_2]
  unfold out2_2
  rw [View.canon_unit_zero origin]
  simp only [View.ld_unit_zero (S := S5000x256) origin, View.ld_unit_zero (S := S256x128) origin]
  obtain ⟨e0, e1, e2, e3, e4, e5⟩ := index_facts t
  funext j
  show k2_pay1 (F := Ideal) (iblk2 V c 0 t) (iblk2 V c 1 t) j = product V c (((cfg2.win 2).blk t).view.emb j)
  refine (BlockProduct.pay2_apply (iblk2 V c 0 t) (iblk2 V c 1 t) j).trans ?_
  unfold product
  refine Eq.trans ?_ (Cert.ReferenceIdeal.HostProduct.dot128_apply (V c main_v47) (V c main_arg6) (((cfg2.win 2).blk t).view.emb j)).symm
  refine Finset.sum_congr rfl fun k _ => ?_
  have h0 : ((cfg2.win 0).blk t).view.emb (BlockProduct.rowAt (j 0) k)
      = Cert.ReferenceIdeal.HostProduct.rowAt ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 256 + 1 * k.val = k.val; omega
  have h1 : ((cfg2.win 1).blk t).view.emb (BlockProduct.colAt128 k (j 1))
      = Cert.ReferenceIdeal.HostProduct.colAt128 k ((((cfg2.win 2).blk t).view.emb j) 1) := by
    funext a; apply Fin.ext
    match a with
    | ⟨0, _⟩ => show win2_1.index t (0 : Fin 2) * 256 + 1 * k.val = k.val; omega
    | ⟨1, _⟩ => show win2_1.index t (1 : Fin 2) * 128 + 1 * (j 1).val = win2_2.index t (1 : Fin 2) * 128 + 1 * (j 1).val; omega
  exact congrArg₂ (fun a b : EReal => a * b) (congrArg (V c main_v47) h0) (congrArg (V c main_arg6) h1)

/-- An index of the output array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v65).slice (win2_2.rect t)).set ↔ _
  rw [View.set_slice_whole, Rect.mem_set_unit]
  exact Iff.rfl

/-- Every row of the output lies in the block of the point its number divided by 5000 names. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE OUTPUT ARRAY after the region: the whole product of the operand arrays as the region found them. -/
theorem final (c : Dev nD) : (dat2 (F := Ideal) V c).arrAt 2 cfg2.N = product V c :=
  (dat2 (F := Ideal) V c).arrAt_eq_of_cover 2 (product V c) (fun t _ => flushed_eq V c t) (covered)

end Cert.KernelIdeal.Tiles2

end
-- ==== Proof.LibConcatenateCongr.lean ====
/-
  A concatenation of two pieces, rewritten piece by piece.

  `concatenate t a [⟨s₁, x⟩, ⟨s₂, y⟩] h` joins `x` and `y` along axis `a`; its side condition `h` speaks of the pieces'
  SHAPES only (`Shape.Concatenates [s₁, s₂] t a`), so replacing `x` and `y` by equal arrays leaves it in place.  Stated in
  the form of a congruence rule (hypotheses `x = x'`, `y = y'`): tagged `congr`, it lets a rewriting pass reach the two
  pieces, which sit inside a list of shape-indexed pairs that no automatically derived congruence enters.
-/
import Idealize.ShloMosaic.PureOps.ShapeOps

namespace Cert.Lib

open Idealize.ShloMosaic

/-- Two-piece concatenations of equal pieces are equal; the side condition, which depends on the shapes alone, is the
    same on both sides.  Use as `attribute [local congr] Cert.Lib.concatenate_pair_congr`. -/
theorem concatenate_pair_congr {α : Type} (t : Shape) (a : Fin t.rank) (s₁ s₂ : Shape) (x : s₁.Idx → α) (y : s₂.Idx → α)
    {x' : s₁.Idx → α} {y' : s₂.Idx → α} (h : Shape.Concatenates [s₁, s₂] t a) (hx : x = x') (hy : y = y') :
    concatenate t a [⟨s₁, x⟩, ⟨s₂, y⟩] h = concatenate t a [⟨s₁, x'⟩, ⟨s₂, y'⟩] h := by
  subst hx; subst hy; rfl

end Cert.Lib
-- ==== Proof.KernelValue.lean ====
/-
  The idealized kernel program's two results are the reference's.

  Each of the three regions leaves in its output array the whole product of its two operand arrays (the ten row blocks
  tile the array) and changes nothing else that outlives it: at the level of buffer contents a region is ONE host
  operation, the reference's `dot_general` of the same two arrays.  With each region replaced by that operation the fold
  of buffer contents through @main is the fold of a plain line of host operations — the reference's own line, operation
  for operation: the same edge lists with self-loops, the same symmetric normalisation, and per layer the same gather,
  scaling, scatter-add and bias.  Read at a result buffer, both folds are the same composed term of the arguments.
-/
import proofs.«143242_j62036507623793_1_alg».proof.Proof.Gen.KernelIdeal.Frame
import proofs.«143242_j62036507623793_1_alg».proof.Proof.Tiles0
import proofs.«143242_j62036507623793_1_alg».proof.Proof.Tiles1
import proofs.«143242_j62036507623793_1_alg».proof.Proof.Tiles2
import proofs.«143242_j62036507623793_1_alg».proof.Proof.RefRun
import proofs.«143242_j62036507623793_1_alg».proof.Proof.LibConcatenateCongr
import Idealize.ShloMosaic.Lib.StableHlo.Run

set_option maxRecDepth 16384

noncomputable section

namespace Cert.KernelIdeal.Results

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## A region is one host operation -/

/-- Region 0 written as the one host operation it amounts to: the `dot_general` of its two operand arrays into its
    output array. -/
abbrev dense0 : HloOp τ sig (Elt Ideal) :=
  StableHlo.binary main_arg0 main_arg2 main_v30 ((fun l r => Host.dotGeneral (F := Ideal) (φ₁ := .f32) (φ₂ := .f32) Cert.ReferenceIdeal.dot_S50000x256_S256x256_S50000x256_1_0_0_1_n_n none l r) : (⟨S50000x256, .f32⟩ : BufTy).Contents (Elt Ideal) → (⟨S256x256, .f32⟩ : BufTy).Contents (Elt Ideal) → (⟨S50000x256, .f32⟩ : BufTy).Contents (Elt Ideal))

/-- The buffer contents at region 0's exit are those at its entry with the whole product written to the output array:
    the two operand arrays are only read, the output array ends at the product (the ten blocks tile it), and no other
    buffer that outlives the region is touched. -/
theorem region0_as_op (c : Dev nD) : W4 m ρ c = dense0.result (W3 m ρ c) := by
  funext b
  by_cases h : ∃ w, Proc.devRef .tc (Pipeline.arrRef spec0 w) = b
  · obtain ⟨w, rfl⟩ := h
    rcases (by decide : ∀ w : Fin 3, w = 0 ∨ w = 1 ∨ w = 2) w with rfl | rfl | rfl
    · exact ((W4_arr m ρ c 0).trans (((dat0 (V3 m ρ) c).arrAt_in 0 rfl _).trans (A_eq0 (V3 m ρ) c 0))).trans
        (StableHlo.binary_result_ne (τ := τ) main_arg0 main_arg2 main_v30 _ _ _ _ (W3 m ρ c) (r := main_arg0) (by decide)).symm
    · exact ((W4_arr m ρ c 1).trans (((dat0 (V3 m ρ) c).arrAt_in 1 rfl _).trans (A_eq0 (V3 m ρ) c 1))).trans
        (StableHlo.binary_result_ne (τ := τ) main_arg0 main_arg2 main_v30 _ _ _ _ (W3 m ρ c) (r := main_arg2) (by decide)).symm
    · exact ((W4_arr m ρ c 2).trans (Tiles0.final (V3 m ρ) c)).trans
        (StableHlo.binary_result (τ := τ) main_arg0 main_arg2 main_v30 _ _ _ _ (W3 m ρ c)).symm
  · have hb : b ∉ (dense0 : HloOp τ sig (Elt Ideal)).writes := by
      rw [StableHlo.binary_writes, Finset.mem_singleton]
      rintro rfl
      exact h ⟨2, rfl⟩
    rw [HloOp.result_of_not_mem _ _ hb]
    unfold W4 Pipeline.withArrays
    dsimp only
    rw [dif_neg h]

/-- Region 1 written as the one host operation it amounts to: the `dot_general` of its two operand arrays into its
    output array. -/
abbrev dense1 : HloOp τ sig (Elt Ideal) :=
  StableHlo.binary main_v47 main_arg4 main_v48 ((fun l r => Host.dotGeneral (F := Ideal) (φ₁ := .f32) (φ₂ := .f32) Cert.ReferenceIdeal.dot_S50000x256_S256x128_S50000x128_1_0_0_1_n_n none l r) : (⟨S50000x256, .f32⟩ : BufTy).Contents (Elt Ideal) → (⟨S256x128, .f32⟩ : BufTy).Contents (Elt Ideal) → (⟨S50000x128, .f32⟩ : BufTy).Contents (Elt Ideal))

/-- The buffer contents at region 1's exit are those at its entry with the whole product written to the output array:
    the two operand arrays are only read, the output array ends at the product (the ten blocks tile it), and no other
    buffer that outlives the region is touched. -/
theorem region1_as_op (c : Dev nD) : W7 m ρ c = dense1.result (W6 m ρ c) := by
  funext b
  by_cases h : ∃ w, Proc.devRef .tc (Pipeline.arrRef spec1 w) = b
  · obtain ⟨w, rfl⟩ := h
    rcases (by decide : ∀ w : Fin 3, w = 0 ∨ w = 1 ∨ w = 2) w with rfl | rfl | rfl
    · exact ((W7_arr m ρ c 0).trans (((dat1 (V6 m ρ) c).arrAt_in 0 rfl _).trans (A_eq1 (V6 m ρ) c 0))).trans
        (StableHlo.binary_result_ne (τ := τ) main_v47 main_arg4 main_v48 _ _ _ _ (W6 m ρ c) (r := main_v47) (by decide)).symm
    · exact ((W7_arr m ρ c 1).trans (((dat1 (V6 m ρ) c).arrAt_in 1 rfl _).trans (A_eq1 (V6 m ρ) c 1))).trans
        (StableHlo.binary_result_ne (τ := τ) main_v47 main_arg4 main_v48 _ _ _ _ (W6 m ρ c) (r := main_arg4) (by decide)).symm
    · exact ((W7_arr m ρ c 2).trans (Tiles1.final (V6 m ρ) c)).trans
        (StableHlo.binary_result (τ := τ) main_v47 main_arg4 main_v48 _ _ _ _ (W6 m ρ c)).symm
  · have hb : b ∉ (dense1 : HloOp τ sig (Elt Ideal)).writes := by
      rw [StableHlo.binary_writes, Finset.mem_singleton]
      rintro rfl
      exact h ⟨2, rfl⟩
    rw [HloOp.result_of_not_mem _ _ hb]
    unfold W7 Pipeline.withArrays
    dsimp only
    rw [dif_neg h]

/-- Region 2 written as the one host operation it amounts to: the `dot_general` of its two operand arrays into its
    output array. -/
abbrev dense2 : HloOp τ sig (Elt Ideal) :=
  StableHlo.binary main_v47 main_arg6 main_v65 ((fun l r => Host.dotGeneral (F := Ideal) (φ₁ := .f32) (φ₂ := .f32) Cert.ReferenceIdeal.dot_S50000x256_S256x128_S50000x128_1_0_0_1_n_n none l r) : (⟨S50000x256, .f32⟩ : BufTy).Contents (Elt Ideal) → (⟨S256x128, .f32⟩ : BufTy).Contents (Elt Ideal) → (⟨S50000x128, .f32⟩ : BufTy).Contents (Elt Ideal))

/-- The buffer contents at region 2's exit are those at its entry with the whole product written to the output array:
    the two operand arrays are only read, the output array ends at the product (the ten blocks tile it), and no other
    buffer that outlives the region is touched. -/
theorem region2_as_op (c : Dev nD) : W9 m ρ c = dense2.result (W8 m ρ c) := by
  funext b
  by_cases h : ∃ w, Proc.devRef .tc (Pipeline.arrRef spec2 w) = b
  · obtain ⟨w, rfl⟩ := h
    rcases (by decide : ∀ w : Fin 3, w = 0 ∨ w = 1 ∨ w = 2) w with rfl | rfl | rfl
    · exact ((W9_arr m ρ c 0).trans (((dat2 (V8 m ρ) c).arrAt_in 0 rfl _).trans (A_eq2 (V8 m ρ) c 0))).trans
        (StableHlo.binary_result_ne (τ := τ) main_v47 main_arg6 main_v65 _ _ _ _ (W8 m ρ c) (r := main_v47) (by decide)).symm
    · exact ((W9_arr m ρ c 1).trans (((dat2 (V8 m ρ) c).arrAt_in 1 rfl _).trans (A_eq2 (V8 m ρ) c 1))).trans
        (StableHlo.binary_result_ne (τ := τ) main_v47 main_arg6 main_v65 _ _ _ _ (W8 m ρ c) (r := main_arg6) (by decide)).symm
    · exact ((W9_arr m ρ c 2).trans (Tiles2.final (V8 m ρ) c)).trans
        (StableHlo.binary_result (τ := τ) main_v47 main_arg6 main_v65 _ _ _ _ (W8 m ρ c)).symm
  · have hb : b ∉ (dense2 : HloOp τ sig (Elt Ideal)).writes := by
      rw [StableHlo.binary_writes, Finset.mem_singleton]
      rintro rfl
      exact h ⟨2, rfl⟩
    rw [HloOp.result_of_not_mem _ _ hb]
    unfold W9 Pipeline.withArrays
    dsimp only
    rw [dif_neg h]

/-! ## The fold through @main as a fold of host operations -/

/-- The last boundary's contents: the launch contents folded through the stretches of host operations and the three
    products, in @main's order. -/
theorem W10_eq (c : Dev nD) : W10 m ρ c
    = after hostOps3 (dense2.result (after hostOps2 (dense1.result (after hostOps1_1 (after hostOps1 (dense0.result
        (after hostOps0_2 (after hostOps0_1 (after hostOps0 (W0 m ρ c)))))))))) := by
  rw [show W10 m ρ c = after hostOps3 (W9 m ρ c) from rfl, region2_as_op,
    show W8 m ρ c = after hostOps2 (W7 m ρ c) from rfl, region1_as_op,
    show W6 m ρ c = after hostOps1_1 (after hostOps1 (W4 m ρ c)) from rfl, region0_as_op]

/-! ## Reading inside a concatenation

The two edge lists are concatenations (the given edges, then one self-loop per node); the rewriting below reaches their
two pieces through the congruence rule for a two-piece concatenation. -/

attribute [local congr] Cert.Lib.concatenate_pair_congr

/-! ## The two outlined functions

`where` (the guarded inverse root of the degree) and `relu` run through references typed by the value's type; a value's
type and its buffer's type are the same type, so what each of their operations leaves in its result buffer is the plain
function of what its operand buffers hold. -/

section Outlined

variable (V : Valuation τ sig (Elt Ideal))

theorem where_zero_result :
    (StableHlo.TRef.unary (.of main_cst_2 : StableHlo.TRef sig ⟨S_, .f32⟩) (.of main_call0_v0 : StableHlo.TRef sig ⟨S_, .f32⟩) id : HloOp τ sig (Elt Ideal)).result V (no_index (Proc.devRef .tc main_call0_v0))
      = V (Proc.devRef .tc main_cst_2) :=
  (StableHlo.unary_result (τ := τ) main_cst_2 main_call0_v0 _ _ _ V).trans rfl

theorem where_splat_result :
    (StableHlo.TRef.unary (.of main_call0_v0 : StableHlo.TRef sig ⟨S_, .f32⟩) (.of main_call0_v1 : StableHlo.TRef sig ⟨S50000, .f32⟩) (broadcastInDim S50000 ![] bcast_S_S50000) : HloOp τ sig (Elt Ideal)).result V (no_index (Proc.devRef .tc main_call0_v1))
      = broadcastInDim S50000 ![] bcast_S_S50000 (V (Proc.devRef .tc main_call0_v0)) :=
  (StableHlo.unary_result (τ := τ) main_call0_v0 main_call0_v1 _ _ _ V).trans rfl

theorem where_select_result :
    (StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select : HloOp τ sig (Elt Ideal)).result V (no_index (Proc.devRef .tc main_v14))
      = select (s := S50000) (V (Proc.devRef .tc main_v12)) (V (Proc.devRef .tc main_v13)) (V (Proc.devRef .tc main_call0_v1)) :=
  (StableHlo.ternary_result (τ := τ) main_v12 main_v13 main_call0_v1 main_v14 _ _ _ _ _ V).trans rfl

theorem relu_zero_result :
    (StableHlo.TRef.nullary (.of main_call1_cst : StableHlo.TRef sig ⟨S_, .f32⟩) (constant (F := Ideal) S_ .f32 0x00000000#32) : HloOp τ sig (Elt Ideal)).result V (no_index (Proc.devRef .tc main_call1_cst))
      = constant (F := Ideal) S_ .f32 0x00000000#32 :=
  (StableHlo.nullary_result (τ := τ) main_call1_cst _ _ V).trans rfl

theorem relu_splat_result :
    (StableHlo.TRef.unary (.of main_call1_cst : StableHlo.TRef sig ⟨S_, .f32⟩) (.of main_call1_v0 : StableHlo.TRef sig ⟨S50000x256, .f32⟩) (broadcastInDim S50000x256 ![] bcast_S_S50000x256) : HloOp τ sig (Elt Ideal)).result V (no_index (Proc.devRef .tc main_call1_v0))
      = broadcastInDim S50000x256 ![] bcast_S_S50000x256 (V (Proc.devRef .tc main_call1_cst)) :=
  (StableHlo.unary_result (τ := τ) main_call1_cst main_call1_v0 _ _ _ V).trans rfl

theorem relu_max_result :
    (StableHlo.TRef.binary (.of main_v46 : StableHlo.TRef sig ⟨S50000x256, .f32⟩) (.of main_call1_v0 : StableHlo.TRef sig ⟨S50000x256, .f32⟩) (.of main_v47 : StableHlo.TRef sig ⟨S50000x256, .f32⟩) (maximumf (F := Ideal) (s := S50000x256) (φ := .f32)) : HloOp τ sig (Elt Ideal)).result V (no_index (Proc.devRef .tc main_v47))
      = maximumf (F := Ideal) (s := S50000x256) (φ := .f32) (V (Proc.devRef .tc main_v46)) (V (Proc.devRef .tc main_call1_v0)) :=
  (StableHlo.binary_result (τ := τ) main_v46 main_call1_v0 main_v47 _ _ _ _ V).trans rfl

end Outlined

/-! ## The two results

Both sides of each equation below are one composed term of the same operations applied to the same arguments — the
kernel program's spelt with its own names for the shapes and dimension records, the reference's with its names for the
same shapes and records: equal operation by operation, whatever a scatter-add or a gather over the 850000 edges
computes. -/

attribute [local irreducible] Host.scatterAdd Host.gather Host.rsqrt addf mulf maximumf select cmpi cmpf addi
  broadcastInDim concatenate shapeCast extractStridedSlice iotaInDim constant constantI

set_option maxHeartbeats 8000000 in
/-- The first result (the mean head) read off the last boundary's contents is the reference's composed term of the arguments: the second layer on `Wmu`, `bmu` over the hidden layer. -/
theorem mean_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    W10 m ρ c (Proc.devRef .tc main_v64) = Cert.ReferenceIdeal.ValueP.res_main_v64 (F := Ideal) m' c := by
  rw [W10_eq]
  unfold Cert.ReferenceIdeal.ValueP.res_main_v64
  rw [h0, h1, h2, h3, h4, h5]
  simp (disch := decide) only [after_cons, after_nil,
    ↓where_zero_result, ↓where_splat_result, ↓where_select_result, ↓relu_zero_result, ↓relu_splat_result, ↓relu_max_result,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rfl

set_option maxHeartbeats 8000000 in
/-- The second result (the log-deviation head) read off the last boundary's contents is the reference's composed term of the arguments: the second layer on `Wls`, `bls` over the hidden layer. -/
theorem logstd_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    W10 m ρ c (Proc.devRef .tc main_v81) = Cert.ReferenceIdeal.ValueP.res_main_v81 (F := Ideal) m' c := by
  rw [W10_eq]
  unfold Cert.ReferenceIdeal.ValueP.res_main_v81
  rw [h0, h1, h2, h3, h6, h7]
  simp (disch := decide) only [after_cons, after_nil,
    ↓where_zero_result, ↓where_splat_result, ↓where_select_result, ↓relu_zero_result, ↓relu_splat_result, ↓relu_max_result,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rfl

end Cert.KernelIdeal.Results

end
-- ==== Proof.lean ====
/-
  The claim: a two-layer graph convolutional encoder (50000 nodes, 800000 edges plus one self-loop per node) whose three
  dense transforms  x · W1,  h · Wmu,  h · Wls  run as row-tiled matrix kernels, against the same encoder with the three
  transforms as plain matrix products.

  Everything around the transforms — the edge lists with self-loops, the in-degrees by scatter-add of ones, the symmetric
  normalisation  rsqrt(deg)[src] · rsqrt(deg)[dst], and per layer the gather of transformed rows by source, the scaling,
  the scatter-add by target and the bias — is the same line of host operations in both programs.  A kernel narrows a block
  of 5000 rows and the weights to bf16 and multiplies them into a zero accumulator; over the extended reals narrowing is
  the identity and the product is the plain sum over the 256 contracted positions, so a block of the kernel's output is
  the same rows of the whole product, and the ten blocks tile the 50000 rows (Tiles0 … Tiles2 over BlockProduct and
  HostProduct).  Hence each region acts on the buffers as the reference's one `dot_general` does, the fold of buffer
  contents through the kernel program is the reference's fold (KernelValue), and both programs end with the same two
  results: no algebraic law beyond the re-indexing of one sum is used, and the inputs' finiteness is not needed.

  The frames of the two kernel programs are the generated ones; the reference's frame is its run with the results
  dropped.  The idealization pass rewrote no operation, so `preserves` is trivial.
-/
import proofs.«143242_j62036507623793_1_alg».proof.Defs
import proofs.«143242_j62036507623793_1_alg».proof.Proof.Gen.Kernel
import proofs.«143242_j62036507623793_1_alg».proof.Proof.Gen.Kernel.Skeleton
import proofs.«143242_j62036507623793_1_alg».proof.Proof.Gen.Kernel.Launch
import proofs.«143242_j62036507623793_1_alg».proof.Proof.Gen.Kernel.Points
import proofs.«143242_j62036507623793_1_alg».proof.Proof.Gen.Kernel.Frame
import proofs.«143242_j62036507623793_1_alg».proof.Proof.Gen.KernelIdeal
import proofs.«143242_j62036507623793_1_alg».proof.Proof.Gen.KernelIdeal.Skeleton
import proofs.«143242_j62036507623793_1_alg».proof.Proof.Gen.KernelIdeal.Launch
import proofs.«143242_j62036507623793_1_alg».proof.Proof.Gen.KernelIdeal.Points
import proofs.«143242_j62036507623793_1_alg».proof.Proof.Gen.KernelIdeal.Frame
import proofs.«143242_j62036507623793_1_alg».proof.Proof.Gen.ReferenceIdeal
import proofs.«143242_j62036507623793_1_alg».proof.Proof.Gen.Pre_finite_inputs
import proofs.«143242_j62036507623793_1_alg».proof.Proof.RefRun
import proofs.«143242_j62036507623793_1_alg».proof.Proof.KernelRun
import proofs.«143242_j62036507623793_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both programs end with the reference's two composed terms of the arguments: the kernel program because every
    buffer ends at the last boundary's contents, which at the two result buffers are those terms; the reference by its
    own run. -/
theorem algebraic : Cert.algebraic_KernelIdeal_ReferenceIdeal := by
  intro m ρ m' ρ' _ hagree
  refine ⟨fun c => Cert.ReferenceIdeal.ValueP.res_main_v64 (F := Ideal) m' c,
    fun c => Cert.ReferenceIdeal.ValueP.res_main_v81 (F := Ideal) m' c, ?_, ?_⟩
  · refine (θ_run Cert.KernelIdeal.defs _ _).mono (fun r h c => ?_) (Cert.KernelIdeal.WholeRun.run (F := Ideal) m ρ)
    obtain ⟨a0, a1, a2, a3, a4, a5, a6, a7⟩ := hagree c
    exact ⟨(h c Cert.KernelIdeal.main_v64 (by decide)).trans (Cert.KernelIdeal.Results.mean_eq m ρ m' c a0 a1 a2 a3 a4 a5),
      (h c Cert.KernelIdeal.main_v81 (by decide)).trans (Cert.KernelIdeal.Results.logstd_eq m ρ m' c a0 a1 a2 a3 a6 a7),
      (h c Cert.KernelIdeal.main_arg0 (by decide)).trans (Cert.KernelIdeal.Gen.W10_main_arg0 m ρ c),
      (h c Cert.KernelIdeal.main_arg1 (by decide)).trans (Cert.KernelIdeal.Gen.W10_main_arg1 m ρ c),
      (h c Cert.KernelIdeal.main_arg2 (by decide)).trans (Cert.KernelIdeal.Gen.W10_main_arg2 m ρ c),
      (h c Cert.KernelIdeal.main_arg3 (by decide)).trans (Cert.KernelIdeal.Gen.W10_main_arg3 m ρ c),
      (h c Cert.KernelIdeal.main_arg4 (by decide)).trans (Cert.KernelIdeal.Gen.W10_main_arg4 m ρ c),
      (h c Cert.KernelIdeal.main_arg5 (by decide)).trans (Cert.KernelIdeal.Gen.W10_main_arg5 m ρ c),
      (h c Cert.KernelIdeal.main_arg6 (by decide)).trans (Cert.KernelIdeal.Gen.W10_main_arg6 m ρ c),
      (h c Cert.KernelIdeal.main_arg7 (by decide)).trans (Cert.KernelIdeal.Gen.W10_main_arg7 m ρ c)⟩
  · exact Cert.ReferenceIdeal.ValueP.run (F := Ideal) m' ρ'

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
